-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000 : S_.BroadcastsInDim S500000 (![] : Fin 0 → Fin S500000.rank)
  reducesTo_S500000_S_d0 : S500000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x500000 32) (main_arg2 : FVec F S500000 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S1x128 : Shape := ⟨2, ![1, 128]⟩
abbrev S1x1 : Shape := ⟨2, ![1, 1]⟩
abbrev S5000x128 : Shape := ⟨2, ![5000, 128]⟩
abbrev S500000x128 : Shape := ⟨2, ![500000, 128]⟩
abbrev S5000x1 : Shape := ⟨2, ![5000, 1]⟩
abbrev S5000 : Shape := ⟨1, ![5000]⟩

abbrev nBuf : Space → Nat
  | .hbm => 89
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x500000, .i32⟩
  | .hbm, ⟨10, _⟩ => ⟨S500000, .i32⟩
  | .hbm, ⟨11, _⟩ => ⟨S1x500000, .i32⟩
  | .hbm, ⟨12, _⟩ => ⟨S500000, .i32⟩
  | .hbm, ⟨13, _⟩ => ⟨S_, .f32⟩
  | .hbm, ⟨14, _⟩ => ⟨S50000, .f32⟩
  | .hbm, ⟨15, _⟩ => ⟨S500000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000, .f32⟩
  | .hbm, ⟨39, _⟩ => ⟨S500000, .f32⟩
  | .hbm, ⟨40, _⟩ => ⟨S_, .i32⟩
  | .hbm, ⟨41, _⟩ => ⟨S500000, .i32⟩
  | .hbm, ⟨42, _⟩ => ⟨S500000, .i1⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S500000, .i32⟩
  | .hbm, ⟨47, _⟩ => ⟨S500000x1, .i32⟩
  | .hbm, ⟨48, _⟩ => ⟨S500000, .f32⟩
  | .hbm, ⟨49, _⟩ => ⟨S500000, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x1, .f32⟩
  | .hbm, ⟨54, _⟩ => ⟨S50000x128, .f32⟩
  | .hbm, ⟨55, _⟩ => ⟨S_, .i32⟩
  | .hbm, ⟨56, _⟩ => ⟨S500000, .i32⟩
  | .hbm, ⟨57, _⟩ => ⟨S500000, .i1⟩
  | .hbm, ⟨58, _⟩ => ⟨S_, .i32⟩
  | .hbm, ⟨59, _⟩ => ⟨S500000, .i32⟩
  | .hbm, ⟨60, _⟩ => ⟨S500000, .i32⟩
  | .hbm, ⟨61, _⟩ => ⟨S500000, .i32⟩
  | .hbm, ⟨62, _⟩ => ⟨S500000x1, .i32⟩
  | .hbm, ⟨63, _⟩ => ⟨S500000x128, .f32⟩
  | .hbm, ⟨64, _⟩ => ⟨S500000x1, .f32⟩
  | .hbm, ⟨65, _⟩ => ⟨S500000x128, .f32⟩
  | .hbm, ⟨66, _⟩ => ⟨S500000x128, .f32⟩
  | .hbm, ⟨67, _⟩ => ⟨S_, .f32⟩
  | .hbm, ⟨68, _⟩ => ⟨S50000x128, .f32⟩
  | .hbm, ⟨69, _⟩ => ⟨S500000x1, .i32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S500000, .i32⟩
  | .hbm, ⟨74, _⟩ => ⟨S500000, .i1⟩
  | .hbm, ⟨75, _⟩ => ⟨S_, .i32⟩
  | .hbm, ⟨76, _⟩ => ⟨S500000, .i32⟩
  | .hbm, ⟨77, _⟩ => ⟨S500000, .i32⟩
  | .hbm, ⟨78, _⟩ => ⟨S500000, .i32⟩
  | .hbm, ⟨79, _⟩ => ⟨S500000x1, .i32⟩
  | .hbm, ⟨80, _⟩ => ⟨S500000x128, .f32⟩
  | .hbm, ⟨81, _⟩ => ⟨S500000x1, .f32⟩
  | .hbm, ⟨82, _⟩ => ⟨S500000x128, .f32⟩
  | .hbm, ⟨83, _⟩ => ⟨S500000x128, .f32⟩
  | .hbm, ⟨84, _⟩ => ⟨S_, .f32⟩
  | .hbm, ⟨85, _⟩ => ⟨S50000x128, .f32⟩
  | .hbm, ⟨86, _⟩ => ⟨S500000x1, .i32⟩
  | .hbm, ⟨87, _⟩ => ⟨S50000x128, .f32⟩
  | .hbm, ⟨88, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S1x128, .f32⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000 : S_.BroadcastsInDim S50000 (![] : Fin 0 → Fin S50000.rank)
  bcast_S500000_S500000x1_0 : S500000.BroadcastsInDim S500000x1 (![0] : Fin 1 → Fin S500000x1.rank)
  shapeCasts_S50000_S50000x1 : S50000.ShapeCasts S50000x1
  bcast_S_S500000 : S_.BroadcastsInDim S500000 (![] : Fin 0 → Fin S500000.rank)
  shapeCasts_S128_S1x128 : S128.ShapeCasts S1x128
  shapeCasts_S128x1_S1x128 : S128x1.ShapeCasts S1x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  dot_S5000x128_S128x128_S5000x128_1_0_0_1_n_n_wf : DotDims.WF S5000x128 S128x128 S5000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S50000x1.size a
  hwx2_6 : ∀ i : grid2.Coords, EltTy.bits .f32 = 32 ∨ (Rect.block (s := S50000x1) S5000x1.size (cc2_transform_6 i) (hinb2_6 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S5000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S50000x128, .f32⟩
  | 1 => ⟨S2x500000, .i32⟩
  | 2 => ⟨S500000, .f32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x500000, .i32⟩
  | 10 => ⟨S500000, .i32⟩
  | 11 => ⟨S1x500000, .i32⟩
  | 12 => ⟨S500000, .i32⟩
  | 13 => ⟨S50000x128, .f32⟩
  | 14 => ⟨S_, .f32⟩
  | 15 => ⟨S50000, .f32⟩
  | 16 => ⟨S500000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000, .f32⟩
  | 38 => ⟨S500000, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000, .f32⟩
  | 48 => ⟨S500000, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S500000x1, .f32⟩
  | 59 => ⟨S500000x128, .f32⟩
  | 60 => ⟨S500000x128, .f32⟩
  | 61 => ⟨S_, .f32⟩
  | 62 => ⟨S50000x128, .f32⟩
  | 63 => ⟨S500000x1, .i32⟩
  | 64 => ⟨S50000x128, .f32⟩
  | 65 => ⟨S50000, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S_, .f32⟩
  | 75 => ⟨S50000, .f32⟩
  | 76 => ⟨S500000x1, .i32⟩
  | 77 => ⟨S50000, .f32⟩
  | 78 => ⟨S_, .f32⟩
  | 79 => ⟨S50000, .f32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000, .f32⟩
  | 98 => ⟨S500000, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000, .f32⟩
  | 108 => ⟨S500000, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S500000x128, .f32⟩
  | 118 => ⟨S500000x1, .f32⟩
  | 119 => ⟨S500000x128, .f32⟩
  | 120 => ⟨S500000x128, .f32⟩
  | 121 => ⟨S_, .f32⟩
  | 122 => ⟨S50000x128, .f32⟩
  | 123 => ⟨S500000x1, .i32⟩
  | 124 => ⟨S50000x128, .f32⟩
  | 125 => ⟨S50000, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S50000x1, .f32⟩
  | 6 => ⟨S1x1, .f32⟩
  | 7 => ⟨S50000x1, .f32⟩
  | 8 => ⟨S50000x1, .f32⟩
  | 9 => ⟨S50000x1, .f32⟩
  | 10 => ⟨S50000x1, .f32⟩
  | 11 => ⟨S_, .f32⟩
  | 12 => ⟨S50000x1, .f32⟩
  | 13 => ⟨S50000x1, .f32⟩
  | 14 => ⟨S_, .f32⟩
  | 15 => ⟨S50000x1, .f32⟩
  | 16 => ⟨S50000x1, .f32⟩
  | 17 => ⟨S_, .f32⟩
  | 18 => ⟨S50000x1, .f32⟩
  | 19 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_call1_v0 : Ref sig .tc := ⟨.hbm, 86, rfl⟩
abbrev main_call1_v1 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_20 : Ref sig .tc := ⟨.hbm, 139, rfl⟩
abbrev main_v104 : Ref sig .tc := ⟨.hbm, 140, rfl⟩
abbrev main_v105 : Ref sig .tc := ⟨.hbm, 141, rfl⟩
abbrev main_cst_21 : Ref sig .tc := ⟨.hbm, 142, rfl⟩
abbrev main_v106 : Ref sig .tc := ⟨.hbm, 143, rfl⟩
abbrev main_v107 : Ref sig .tc := ⟨.hbm, 144, rfl⟩
abbrev main_cst_22 : Ref sig .tc := ⟨.hbm, 145, rfl⟩
abbrev main_v108 : Ref sig .tc := ⟨.hbm, 146, rfl⟩
abbrev main_v109 : Ref sig .tc := ⟨.hbm, 147, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000 : S_.BroadcastsInDim S50000 (![] : Fin 0 → Fin S50000.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x128_S128x128_S50000x128_1_0_0_1_n_n_wf : DotDims.WF S50000x128 S128x128 S50000x128 [1] [0] [0] [1] [] []
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel program's run, with every buffer named.

  The program is three kernel launches among stretches of host operations. Running it from the launch memory ends, on
  every core, with each buffer that outlives the launches holding the contents obtained by folding the program's
  segments over the launch memory: a stretch of host operations maps the contents through its operations, a launch
  replaces its arrays by what its grid's write-backs leave and keeps every other buffer. The result of the program
  is one of those buffers (the last launch's output array), and so are the nine arguments.
-/
import proofs.«102049_j72619307041204_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in every final state each core's buffers
    that outlive the launches hold the fold of the program's segments over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Whole

end
-- ==== Proof.Entry0.lean ====
/-
  The buffers at the first launch's entry, as functions of the arguments.

  Before the first launch the program computes, on the host, everything that depends on the graph only: the source and
  destination node of every edge (the two rows of the edge list), the degree of every node (the edge weights summed
  into their destination, plus one for the self-loop), its inverse square root where the degree is positive, the
  per-edge coefficient (inverse root at the source times the weight times inverse root at the destination), the squared
  inverse root as a column, and the biases and the last layer's weights laid out as rows. The reference computes the
  same quantities by the same operations of the same arguments, so each of these buffers holds the corresponding stage
  of the reference — read off by applying the host operations in order; no kernel has run yet, and the arguments are
  as launched.
-/
import proofs.«102049_j72619307041204_2_alg».proof.Proof.Gen.KernelIdeal.Frame
import proofs.«102049_j72619307041204_2_alg».proof.Proof.Gen.ReferenceIdeal.Read

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The node features are as launched. -/
theorem entry0_x (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

/-- The first layer's weights are as launched. -/
theorem entry0_W1 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

/-- The second layer's weights are as launched. -/
theorem entry0_W2 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

/-- The source node of every edge. -/
theorem entry0_src (c : Dev nD) : W3 m ρ c (Proc.devRef .tc main_v1) = Cert.ReferenceIdeal.Read.val_main_v1 (F := F) (m ((c : Thread nD τ).loc main_arg1)) := by
  show StableHlo.after hostOps0_2 (StableHlo.after hostOps0_1 (StableHlo.after hostOps0 (W0 m ρ c))) (Proc.devRef .tc main_v1) = _
  after_results_simp <;> rfl

/-- The destination node of every edge. -/
theorem entry0_dst (c : Dev nD) : W3 m ρ c (Proc.devRef .tc main_v3) = Cert.ReferenceIdeal.Read.val_main_v3 (F := F) (m ((c : Thread nD τ).loc main_arg1)) := by
  show StableHlo.after hostOps0_2 (StableHlo.after hostOps0_1 (StableHlo.after hostOps0 (W0 m ρ c))) (Proc.devRef .tc main_v3) = _
  after_results_simp <;> rfl

set_option maxHeartbeats 2000000 in
/-- The per-edge coefficient: inverse root degree at the source, times the weight, times inverse root degree at the
    destination. -/
theorem entry0_coef (c : Dev nD) : W3 m ρ c (Proc.devRef .tc main_v30) = Cert.ReferenceIdeal.Read.val_main_v29 (F := F) (m ((c : Thread nD τ).loc main_arg1)) (m ((c : Thread nD τ).loc main_arg2)) := by
  show StableHlo.after hostOps0_2 (StableHlo.after hostOps0_1 (StableHlo.after hostOps0 (W0 m ρ c))) (Proc.devRef .tc main_v30) = _
  after_results_simp <;> rfl

set_option maxHeartbeats 2000000 in
/-- The squared inverse root degree of every node, as a column. -/
theorem entry0_selfcol (c : Dev nD) : W3 m ρ c (Proc.devRef .tc main_v14)
    = (fun i => shapeCast S50000x1 (Cert.ReferenceIdeal.Read.val_main_v43 (F := F) (m ((c : Thread nD τ).loc main_arg1)) (m ((c : Thread nD τ).loc main_arg2))) shapeCasts_S50000_S50000x1 i) := by
  show StableHlo.after hostOps0_2 (StableHlo.after hostOps0_1 (StableHlo.after hostOps0 (W0 m ρ c))) (Proc.devRef .tc main_v14) = _
  after_results_simp <;> rfl

/-- The first layer's bias as a row. -/
theorem entry0_b1row (c : Dev nD) : W3 m ρ c (Proc.devRef .tc main_v31) = (fun i => shapeCast S1x128 (m ((c : Thread nD τ).loc main_arg4)) shapeCasts_S128_S1x128 i) := by
  show StableHlo.after hostOps0_2 (StableHlo.after hostOps0_1 (StableHlo.after hostOps0 (W0 m ρ c))) (Proc.devRef .tc main_v31) = _
  after_results_simp <;> rfl

/-- The second layer's bias as a row. -/
theorem entry0_b2row (c : Dev nD) : W3 m ρ c (Proc.devRef .tc main_v32) = (fun i => shapeCast S1x128 (m ((c : Thread nD τ).loc main_arg6)) shapeCasts_S128_S1x128 i) := by
  show StableHlo.after hostOps0_2 (StableHlo.after hostOps0_1 (StableHlo.after hostOps0 (W0 m ρ c))) (Proc.devRef .tc main_v32) = _
  after_results_simp <;> rfl

/-- The last layer's weight column as a row. -/
theorem entry0_wfrow (c : Dev nD) : W3 m ρ c (Proc.devRef .tc main_v33) = (fun i => shapeCast S1x128 (m ((c : Thread nD τ).loc main_arg7)) shapeCasts_S128x1_S1x128 i) := by
  show StableHlo.after hostOps0_2 (StableHlo.after hostOps0_1 (StableHlo.after hostOps0 (W0 m ρ c))) (Proc.devRef .tc main_v33) = _
  after_results_simp <;> rfl

/-- The last layer's bias as a one-entry matrix. -/
theorem entry0_bf11 (c : Dev nD) : W3 m ρ c (Proc.devRef .tc main_v34) = (fun i => shapeCast S1x1 (m ((c : Thread nD τ).loc main_arg8)) shapeCasts_S1_S1x1 i) := by
  show StableHlo.after hostOps0_2 (StableHlo.after hostOps0_1 (StableHlo.after hostOps0 (W0 m ρ c))) (Proc.devRef .tc main_v34) = _
  after_results_simp <;> rfl

end Cert.KernelIdeal.Whole

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.Region0.lean ====
/-
  The first launch: a block of rows of x · W1 per grid point.

  The grid has ten points; point t reads rows 5000 t … 5000 t + 4999 of x and all of W1, and writes the product of that
  row block with W1 (accumulated into zero; the change of float format before the product is the identity on the
  extended reals) to the same rows of the output. Entry (p, q) of the block product is the sum over k of
  x (5000 t + p, k) · W1 (k, q), which is entry (5000 t + p, q) of the whole product x · W1 as the reference computes it.
  The ten row blocks tile the output, so after the launch the output array is the whole product.
-/
import proofs.«102049_j72619307041204_2_alg».proof.Proof.Gen.KernelIdeal.Frame
import proofs.«102049_j72619307041204_2_alg».proof.Proof.Gen.ReferenceIdeal.Read
import proofs.«102049_j72619307041204_2_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The origin of a block, written as the constant map. -/
theorem origin2 : (![0, 0] : Fin 2 → Nat) = fun _ => 0 := funext fun a => by fin_cases a <;> rfl

/-- The first launch's index maps over its grid: the row-blocked windows (x and the output) are at block row t, the
    weight window stays at the origin. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value at entry (y 0, y 1) of its block is the sum over k of the row block at (y 0, k) times the
    weights at (k, y 1). -/
theorem product0_apply (x0 : Vec Ideal S5000x128 .f32) (x1 : Vec Ideal S128x128 .f32) (y : S5000x128.Idx) :
    k0_pay1 x0 x1 y = ∑ k : Fin 128, x0 (ix2 (y 0) k) * x1 (ix2 k (y 1)) := by
  obtain ⟨p, q, rfl⟩ : ∃ (p : Fin 5000) (q : Fin 128), y = ix2 p q := ⟨y 0, y 1, eq_ix2 y⟩
  unfold k0_pay1
  exact Cert.Lib.matmul_plain_zero_apply none (truncf .bf16 x0 bitsLt_bf16_f32) (truncf .bf16 x1 bitsLt_bf16_f32) p q

/-- A row block's product at a block index is the reference's whole product at the array index the block index sits at,
    given that the blocks read the arrays there. -/
theorem product0_eq (X : (⟨Cert.ReferenceIdeal.S50000x128, .f32⟩ : BufTy).Contents (Elt Ideal))
    (W : (⟨Cert.ReferenceIdeal.S128x128, .f32⟩ : BufTy).Contents (Elt Ideal))
    (x0 : Vec Ideal S5000x128 .f32) (x1 : Vec Ideal S128x128 .f32) (i : Cert.ReferenceIdeal.S50000x128.Idx) (y : S5000x128.Idx)
    (h0 : ∀ k : Fin 128, x0 (ix2 (y 0) k) = X (Cert.ReferenceIdeal.Read.lidx_main_v4 i k))
    (h1 : ∀ k : Fin 128, x1 (ix2 k (y 1)) = W (Cert.ReferenceIdeal.Read.ridx_main_v4 i k)) :
    k0_pay1 x0 x1 y = Cert.ReferenceIdeal.Read.val_main_v4 X W i := by
  rw [product0_apply, Cert.ReferenceIdeal.Read.val_main_v4_apply]
  exact Finset.sum_congr rfl fun k _ => by rw [h0 k, h1 k]

variable (V : (c : Dev nD) → (b : Ref sig .tc) → Buf (Elt Ideal) ((c : Thread nD τ).loc b))

/-- What point t writes back is block t of the whole product x · W1 of the arrays as the launch finds them. -/
theorem flushed0_eq (c : Dev nD) (t : Fin cfg0.N) :
    (dat0 V c).flushed 2 t = ((cfg0.win 2).blk t).view.read (Elt Ideal) (Cert.ReferenceIdeal.Read.val_main_v4 (V c main_arg0) (V c main_arg3)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨e0, e1, e2, e3, e4, e5⟩ := index_maps0 t
  funext j
  refine product0_eq (V c main_arg0) (V c main_arg3) (iblk0 V c 0 t) (iblk0 V c 1 t) (((cfg0.win 2).blk t).view.emb j) j (fun k => ?_) (fun k => ?_)
  · show V c main_arg0 (((cfg0.win 0).blk t).view.emb (ix2 (j 0) k)) = V c main_arg0 _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Row r of the output is in the block of point r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, (by omega : (i 0).val / 5000 < 10)⟩
  obtain ⟨-, -, -, -, e4, e5⟩ := index_maps0 t
  have e4' : win0_2.index t (0 : Fin 2) = (i 0).val / 5000 := e4
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first launch its output array is the reference's whole product of the arrays the launch found. -/
theorem product0 (c : Dev nD) :
    (dat0 V c).arrAt 2 cfg0.N = Cert.ReferenceIdeal.Read.val_main_v4 (V c main_arg0) (V c main_arg3) :=
  (dat0 V c).arrAt_eq_of_cover 2 _ (fun t _ => flushed0_eq V c t) cover0

end Cert.KernelIdeal.Whole

end
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Hidden.lean ====
/-
  The layer epilogue both fused kernels start with, read at an entry.

  On a block of 5000 rows the kernels form h = agg + xw · d + b, where agg and xw are [5000, 128] blocks, d is a
  [5000, 1] column (one number per row, spread over the 128 lanes) and b is a [1, 128] row (one number per lane, spread
  over the rows). Entry (p, q) of h is agg (p, q) + xw (p, q) · d (p, 0) + b (0, q), grouped as written. On the reference's
  side the same layer is the aggregated messages plus the self-loop term plus the bias, over all 50000 rows; its entry
  (r, q) is the aggregate at (r, q) plus the product at (r, q) times the squared inverse root degree of node r, plus
  the bias at q.
-/
import proofs.«102049_j72619307041204_2_alg».proof.Proof.Gen.KernelIdeal
import proofs.«102049_j72619307041204_2_alg».proof.Proof.Gen.ReferenceIdeal.Read
import proofs.«102049_j72619307041204_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole

open Cert.KernelIdeal Cert.KernelIdeal.Facts₀ Cert.KernelIdeal.Facts
open Idealize.ShloMosaic Idealize.ShloMosaic.ValueIdx

/-- The kernels' epilogue on a block, as the printed operations spell it. -/
def hidden (v0 v2 : Vec Ideal S5000x128 .f32) (v4 : Vec Ideal S5000x1 .f32) (v6 : Vec Ideal S1x128 .f32) : FVec Ideal S5000x128 .f32 :=
  addf (addf (shapeCast S5000x128 v0 shapeCasts_S5000x128_S5000x128)
      (mulf (shapeCast S5000x128 v2 shapeCasts_S5000x128_S5000x128)
        (broadcastTo S5000x128 (shapeCast S5000x1 v4 shapeCasts_S5000x1_S5000x1) broadcasts_S5000x1_S5000x128)))
    (broadcastTo S5000x128 (shapeCast S1x128 v6 shapeCasts_S1x128_S1x128) broadcasts_S1x128_S5000x128)

/-- Entry (p, q) of the epilogue: aggregate plus product times the row's column entry, plus the lane's row entry. -/
theorem hidden_apply (v0 v2 : Vec Ideal S5000x128 .f32) (v4 : Vec Ideal S5000x1 .f32) (v6 : Vec Ideal S1x128 .f32)
    (p : Fin 5000) (q : Fin 128) :
    hidden v0 v2 v4 v6 (ix2 p q) = v0 (ix2 p q) + v2 (ix2 p q) * v4 (ix2 p (0 : Fin 1)) + v6 (ix2 (0 : Fin 1) q) := by
  unfold hidden
  rw [shapeCast_self, shapeCast_self, shapeCast_self, shapeCast_self]
  show (v0 (ix2 p q) + v2 (ix2 p q) * broadcastTo S5000x128 v4 broadcasts_S5000x1_S5000x128 (ix2 p q))
      + broadcastTo S5000x128 v6 broadcasts_S1x128_S5000x128 (ix2 p q) = _
  rw [Cert.Lib.broadcastTo_a1_ab_apply, broadcastTo_1b_ab_apply]

open Cert.ReferenceIdeal in
/-- The reference's first hidden layer at (r, q): the aggregate, plus the product times the squared inverse root degree
    of node r, plus the bias at q. -/
theorem ref_hidden1_apply (x0 : (⟨S50000x128, .f32⟩ : BufTy).Contents (Elt Ideal)) (x1 : (⟨S2x500000, .i32⟩ : BufTy).Contents (Elt Ideal))
    (x2 : (⟨S500000, .f32⟩ : BufTy).Contents (Elt Ideal)) (x3 : (⟨S128x128, .f32⟩ : BufTy).Contents (Elt Ideal))
    (x4 : (⟨S128, .f32⟩ : BufTy).Contents (Elt Ideal)) (i : S50000x128.Idx) :
    Read.val_main_v50 (F := Ideal) x0 x1 x2 x3 x4 i
      = Read.val_main_v42 (F := Ideal) x0 x1 x2 x3 i + Read.val_main_v4 (F := Ideal) x0 x3 i * Read.val_main_v43 (F := Ideal) x1 x2 (ix1 (i 0))
        + x4 (ix1 (i 1)) := by
  rw [Read.val_main_v50_apply, Read.val_main_v47_apply, Read.val_main_v46_apply, Read.val_main_v45_apply, Read.val_main_v44_apply,
    Read.val_main_v49_apply, Read.val_main_v48_apply]
  have e1 : Read.idx_main_v44 (Read.idx_main_v45 i) = ix1 (i 0) := funext fun a => by match a with | ⟨0, _⟩ => rfl
  have e2 : Read.idx_main_v48 (Read.idx_main_v49 i) = ix1 (i 1) := funext fun a => by match a with | ⟨0, _⟩ => rfl
  rw [e1, e2]
  rfl

end Cert.KernelIdeal.Whole

end
-- ==== Proof.Region1.lean ====
/-
  The second launch: the first layer's epilogue fused into the second layer's product, a block of rows per grid point.

  Point t reads rows 5000 t … 5000 t + 4999 of the aggregated messages, of the first product x · W1 and of the column of
  squared inverse root degrees, the bias row and all of W2; it forms h = agg + xw · d + b on the block and writes
  h · W2 (accumulated into zero) to the same rows of the output. Entry (p, q) of the block product is the sum over k of
  h (p, k) · W2 (k, q), and h (p, k) is the reference's first hidden layer at (5000 t + p, k) once the arrays the launch
  finds are the reference's stages; so the block is the same rows of the reference's second product. The ten row blocks
  tile the output.
-/
import proofs.«102049_j72619307041204_2_alg».proof.Proof.Gen.KernelIdeal.Frame
import proofs.«102049_j72619307041204_2_alg».proof.Proof.Gen.ReferenceIdeal.Read
import proofs.«102049_j72619307041204_2_alg».proof.Proof.LibPlainMatmul
import proofs.«102049_j72619307041204_2_alg».proof.Proof.Hidden
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The origin of a block, written as the constant map. -/
theorem origin2' : (![0, 0] : Fin 2 → Nat) = fun _ => 0 := funext fun a => by fin_cases a <;> rfl

/-- The second launch's index maps over its grid: the row-blocked windows (aggregate, first product, degree column,
    output) are at block row t; the bias row and the weights stay at the origin. -/
theorem index_maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's stored value at entry (y 0, y 1) of its block: the sum over k of the epilogue at (y 0, k) times the weights
    at (k, y 1). -/
theorem product1_apply (v0 v2 : Vec Ideal S5000x128 .f32) (v4 : Vec Ideal S5000x1 .f32) (v6 : Vec Ideal S1x128 .f32)
    (v14 : Vec Ideal S128x128 .f32) (y : S5000x128.Idx) :
    k1_pay1 v0 v2 v4 v6 v14 y = ∑ k : Fin 128, hidden v0 v2 v4 v6 (ix2 (y 0) k) * v14 (ix2 k (y 1)) := by
  obtain ⟨p, q, rfl⟩ : ∃ (p : Fin 5000) (q : Fin 128), y = ix2 p q := ⟨y 0, y 1, eq_ix2 y⟩
  unfold k1_pay1
  exact Cert.Lib.matmul_plain_zero_apply none (truncf .bf16 (hidden v0 v2 v4 v6) bitsLt_bf16_f32) (truncf .bf16 v14 bitsLt_bf16_f32) p q

/-- The block product at a block index is the reference's second product at the array index it sits at, given that the
    block's epilogue entries are the reference's hidden layer there and the weights are read in place. -/
theorem product1_eq (x0 : (⟨Cert.ReferenceIdeal.S50000x128, .f32⟩ : BufTy).Contents (Elt Ideal))
    (x1 : (⟨Cert.ReferenceIdeal.S2x500000, .i32⟩ : BufTy).Contents (Elt Ideal))
    (x2 : (⟨Cert.ReferenceIdeal.S500000, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (v0 v2 : Vec Ideal S5000x128 .f32) (v4 : Vec Ideal S5000x1 .f32) (v6 : Vec Ideal S1x128 .f32) (v14 : Vec Ideal S128x128 .f32)
    (i : Cert.ReferenceIdeal.S50000x128.Idx) (y : S5000x128.Idx)
    (h : ∀ k : Fin 128, v0 (ix2 (y 0) k) + v2 (ix2 (y 0) k) * v4 (ix2 (y 0) (0 : Fin 1)) + v6 (ix2 (0 : Fin 1) k)
        = Cert.ReferenceIdeal.Read.val_main_v50 (F := Ideal) x0 x1 x2 x3 x4 (Cert.ReferenceIdeal.Read.lidx_main_v51 i k))
    (hw : ∀ k : Fin 128, v14 (ix2 k (y 1)) = x5 (Cert.ReferenceIdeal.Read.ridx_main_v51 i k)) :
    k1_pay1 v0 v2 v4 v6 v14 y = Cert.ReferenceIdeal.Read.val_main_v51 (F := Ideal) x0 x1 x2 x3 x4 x5 i := by
  rw [product1_apply]
  refine (Finset.sum_congr rfl fun k _ => ?_).trans (Cert.ReferenceIdeal.Read.val_main_v51_apply x0 x1 x2 x3 x4 x5 i).symm
  rw [← h k, ← hw k]
  exact congrArg (· * v14 (ix2 k (y 1))) (hidden_apply v0 v2 v4 v6 (y 0) k)

variable (V : (c : Dev nD) → (b : Ref sig .tc) → Buf (Elt Ideal) ((c : Thread nD τ).loc b))

/-- What point t writes back is block t of the reference's second product, when the arrays the launch finds are the
    reference's stages of some arguments. -/
theorem flushed1_eq (c : Dev nD) (t : Fin cfg1.N) (x0 : (⟨Cert.ReferenceIdeal.S50000x128, .f32⟩ : BufTy).Contents (Elt Ideal))
    (x1 : (⟨Cert.ReferenceIdeal.S2x500000, .i32⟩ : BufTy).Contents (Elt Ideal))
    (x2 : (⟨Cert.ReferenceIdeal.S500000, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (Hagg : V c main_v48 = Cert.ReferenceIdeal.Read.val_main_v42 (F := Ideal) x0 x1 x2 x3)
    (Hxw : V c main_v35 = Cert.ReferenceIdeal.Read.val_main_v4 (F := Ideal) x0 x3)
    (Hd : ∀ r : S50000x1.Idx, V c main_v14 r = Cert.ReferenceIdeal.Read.val_main_v43 (F := Ideal) x1 x2 (ix1 (r 0)))
    (Hb : ∀ r : S1x128.Idx, V c main_v31 r = x4 (ix1 (r 1)))
    (Hw : V c main_arg5 = x5) :
    (dat1 V c).flushed 5 t = ((cfg1.win 5).blk t).view.read (Elt Ideal) (Cert.ReferenceIdeal.Read.val_main_v51 (F := Ideal) x0 x1 x2 x3 x4 x5) := by
  show (cfg1.win 5).cut (grid1.coords t) ((dat1 V c).after 5 t) = _
  rw [after1_5]
  unfold out1_5
  rw [View.canon_unit_zero origin2']
  simp only [View.ld_unit_zero (S := S5000x128) origin2', View.ld_unit_zero (S := S128x128) origin2',
    View.ld_unit_zero (S := S5000x1) origin2', View.ld_unit_zero (S := S1x128) origin2']
  obtain ⟨e0, e1, e2, e3, e4, e5, e6, e7, e8, e9, e10, e11⟩ := index_maps1 t
  funext j
  refine product1_eq x0 x1 x2 x3 x4 x5 (iblk1 V c 0 t) (iblk1 V c 1 t) (iblk1 V c 2 t) (iblk1 V c 3 t) (iblk1 V c 4 t)
    (((cfg1.win 5).blk t).view.emb j) j (fun k => ?_) (fun k => ?_)
  · rw [ref_hidden1_apply]
    refine congrArg₂ HAdd.hAdd (congrArg₂ HAdd.hAdd ?_ (congrArg₂ HMul.hMul ?_ ?_)) ?_
    · show V c main_v48 (((cfg1.win 0).blk t).view.emb (ix2 (j 0) k)) = _
      rw [Hagg]
      refine congrArg (Cert.ReferenceIdeal.Read.val_main_v42 (F := Ideal) x0 x1 x2 x3) (funext fun a => Fin.ext ?_)
      match a with
      | ⟨0, _⟩ => show win1_0.index t (0 : Fin 2) * 5000 + 1 * (j 0).val = win1_5.index t (0 : Fin 2) * 5000 + 1 * (j 0).val; omega
      | ⟨1, _⟩ => show win1_0.index t (1 : Fin 2) * 128 + 1 * k.val = k.val; omega
    · show V c main_v35 (((cfg1.win 1).blk t).view.emb (ix2 (j 0) k)) = _
      rw [Hxw]
      refine congrArg (Cert.ReferenceIdeal.Read.val_main_v4 (F := Ideal) x0 x3) (funext fun a => Fin.ext ?_)
      match a with
      | ⟨0, _⟩ => show win1_1.index t (0 : Fin 2) * 5000 + 1 * (j 0).val = win1_5.index t (0 : Fin 2) * 5000 + 1 * (j 0).val; omega
      | ⟨1, _⟩ => show win1_1.index t (1 : Fin 2) * 128 + 1 * k.val = k.val; omega
    · show V c main_v14 (((cfg1.win 2).blk t).view.emb (ix2 (j 0) (0 : Fin 1))) = _
      rw [Hd]
      refine congrArg (Cert.ReferenceIdeal.Read.val_main_v43 (F := Ideal) x1 x2) (funext fun a => Fin.ext ?_)
      match a with
      | ⟨0, _⟩ => show win1_2.index t (0 : Fin 2) * 5000 + 1 * (j 0).val = win1_5.index t (0 : Fin 2) * 5000 + 1 * (j 0).val; omega
    · show V c main_v31 (((cfg1.win 3).blk t).view.emb (ix2 (0 : Fin 1) k)) = _
      rw [Hb]
      refine congrArg x4 (funext fun a => Fin.ext ?_)
      match a with
      | ⟨0, _⟩ => show win1_3.index t (1 : Fin 2) * 128 + 1 * k.val = k.val; omega
  · show V c main_arg5 (((cfg1.win 4).blk t).view.emb (ix2 k (j 1))) = _
    rw [Hw]
    refine congrArg x5 (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_5.index t (1 : Fin 2) * 128 + 1 * (j 1).val; omega

/-- An index of the output array is in point t's block iff each coordinate is in the block's range on its axis. -/
theorem mem_block1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

/-- Row r of the output is in the block of point r / 5000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, (by omega : (i 0).val / 5000 < 10)⟩
  obtain ⟨-, -, -, -, -, -, -, -, -, -, e10, e11⟩ := index_maps1 t
  have e10' : win1_5.index t (0 : Fin 2) = (i 0).val / 5000 := e10
  refine ⟨t, flush1_5 t, ?_⟩
  rw [mem_block1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the second launch its output array is the reference's second product, when the arrays the launch found are the
    reference's stages of some arguments. -/
theorem product1 (c : Dev nD) (x0 : (⟨Cert.ReferenceIdeal.S50000x128, .f32⟩ : BufTy).Contents (Elt Ideal))
    (x1 : (⟨Cert.ReferenceIdeal.S2x500000, .i32⟩ : BufTy).Contents (Elt Ideal))
    (x2 : (⟨Cert.ReferenceIdeal.S500000, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (Hagg : V c main_v48 = Cert.ReferenceIdeal.Read.val_main_v42 (F := Ideal) x0 x1 x2 x3)
    (Hxw : V c main_v35 = Cert.ReferenceIdeal.Read.val_main_v4 (F := Ideal) x0 x3)
    (Hd : ∀ r : S50000x1.Idx, V c main_v14 r = Cert.ReferenceIdeal.Read.val_main_v43 (F := Ideal) x1 x2 (ix1 (r 0)))
    (Hb : ∀ r : S1x128.Idx, V c main_v31 r = x4 (ix1 (r 1)))
    (Hw : V c main_arg5 = x5) :
    (dat1 V c).arrAt 5 cfg1.N = Cert.ReferenceIdeal.Read.val_main_v51 (F := Ideal) x0 x1 x2 x3 x4 x5 :=
  (dat1 V c).arrAt_eq_of_cover 5 _ (fun t _ => flushed1_eq V c t x0 x1 x2 x3 x4 x5 Hagg Hxw Hd Hb Hw) cover1

end Cert.KernelIdeal.Whole

end
-- ==== Proof.LibUnitSpread.lean ====
/-
  A one-entry array spread over a block, read at an index, for any element type: a [1, 1] array broadcast to [a, b]
  reads its one entry everywhere (Cert.Lib.broadcastTo_11_ab_apply: a scalar kept as a [1, 1] operand of a kernel).
-/
import Idealize.ShloMosaic.Lib.ValueLayout

namespace Cert.Lib

open Idealize.ShloMosaic Idealize.ShloMosaic.ValueIdx

/-- A [1, 1] array broadcast to [a, b] reads, everywhere, its one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Lib
-- ==== Proof.LibHeadLayout.lean ====
/-
  Three readings at an index that a kernel's head meets when a matrix product with a one-column matrix is written as a
  broadcast multiply and a sum over the lanes.

  * The sum over the lanes of a [a, b] block, started from zero, read at row p, is the sum over k of the block's entries
    (p, k): over the extended reals a reduction from the neutral element is the plain finite sum.
  * A one-column matrix [a, 1] recast as a row [1, a] reads, at (·, q), the column's entry (q, 0): the recast keeps the
    row-major order, and both shapes list the same a numbers in it.
  * A one-entry vector recast as a one-entry matrix reads its entry.
-/
import Idealize.ShloMosaic.Lib.Pipeline.Value
import Idealize.ShloMosaic.Lib.ValueIdx
import Idealize.ShloMosaic.PureOps.Ideal.Laws

noncomputable section

namespace Cert.Lib

open Idealize.ShloMosaic Idealize.ShloMosaic.ValueIdx

/-- Summing the lanes of an [a, b] array from zero: at row p the result is the sum over k of the entries (p, k). -/
theorem lane_sum_zero_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  refine Finset.sum_congr rfl fun k _ => congrArg src ?_
  funext c; apply Fin.ext
  fin_cases c <;> rfl

variable {α : Type}

/-- An [a, 1] column recast as a [1, a] row reads, at (u, q), the column at (q, 0). -/
theorem shapeCast_a1_1a_apply {a : ℕ} (x : (⟨2, ![a, 1]⟩ : Shape).Idx → α) (h : (⟨2, ![a, 1]⟩ : Shape).ShapeCasts ⟨2, ![1, a]⟩)
    (u : Fin 1) (q : Fin a) : shapeCast ⟨2, ![1, a]⟩ x h (ix2 u q) = x (ix2 q (0 : Fin 1)) :=
  shapeCast_apply x h _ _ (by
    have hu : u.val = 0 := by omega
    rw [Shape.rowMajor_val_two, Shape.rowMajor_val_two]
    show q.val * 1 + 0 = u.val * a + q.val
    rw [hu, Nat.zero_mul, Nat.zero_add, Nat.mul_one, Nat.add_zero])

/-- A one-entry vector recast as a [1, 1] matrix reads, everywhere, its entry. -/
theorem shapeCast_1_11_apply (x : (⟨1, ![1]⟩ : Shape).Idx → α) (h : (⟨1, ![1]⟩ : Shape).ShapeCasts ⟨2, ![1, 1]⟩)
    (u w : Fin 1) : shapeCast ⟨2, ![1, 1]⟩ x h (ix2 u w) = x (ix1 (0 : Fin 1)) :=
  shapeCast_apply x h _ _ (by
    have hu : u.val = 0 := by omega
    have hw : w.val = 0 := by omega
    rw [Shape.rowMajor_val_one, Shape.rowMajor_val_two]
    show 0 = u.val * 1 + w.val
    rw [hu, hw])

end Cert.Lib

end
-- ==== Proof.LibSigmoidPower.lean ====
/-
  General facts about the extended reals, as an idealized float program computes on them, that join a kernel's
  arithmetic to a reference's: the sigmoid of any extended real — infinite ones included — is a real number; the power
  with the real exponent 4 of a real number is the number squared and squared again (for a negative base too: the
  exponent is an even integer); one minus a real number is a real number; the single-precision patterns of 0.0, 1.0 and
  4.0 denote 0, 1 and 4; and a shape cast only renames indices, so the sum over a cast array is the sum over the array.
-/
import Idealize.ShloMosaic.PureOps.Ideal
import Idealize.ShloMosaic.PureOps.Ideal.Laws
import Idealize.ShloMosaic.Lib.ValueIdx

noncomputable section

namespace Cert.Lib

open Idealize.ShloMosaic

/-- The single-precision pattern of +0.0 denotes the number 0. -/
theorem ofBits_f32_zero : Ideal.ofBits .f32 0x00000000#32 = 0 := by
  simp [Ideal.ofBits, Ideal.ieee]

/-- The single-precision pattern of 1.0 denotes the number 1. -/
theorem ofBits_f32_one : Ideal.ofBits .f32 0x3F800000#32 = 1 := by
  simp [Ideal.ofBits, Ideal.ieee, -EReal.coe_mul]; norm_num

/-- The single-precision pattern of 4.0 denotes the real number 4. -/
theorem ofBits_f32_four : Ideal.ofBits .f32 0x40800000#32 = ((4 : ℝ) : EReal) := by
  simp [Ideal.ofBits, Ideal.ieee, -EReal.coe_mul]; norm_num

/-- The sigmoid of any extended real is a real number: 0 at -inf, 1 at +inf, 1/(1+e^(-r)) at a real r. -/
theorem logistic_real (x : EReal) : ∃ s : ℝ, Ideal.logistic x = (s : EReal) := by
  induction x using EReal.rec with
  | bot => exact ⟨0, by rw [Ideal.logistic_bot]; rfl⟩
  | coe r => exact ⟨_, Ideal.logistic_coe r⟩
  | top => exact ⟨1, by rw [Ideal.logistic_top]; rfl⟩

/-- The power with the real exponent 4 of a real number is its square squared. -/
theorem rpow_four_eq_sq_sq (r : ℝ) : Ideal.pow (r : EReal) ((4 : ℝ) : EReal) = ((r : EReal) * r) * ((r : EReal) * r) := by
  rw [Ideal.pow_coe_coe, ← EReal.coe_mul, ← EReal.coe_mul]
  congr 1
  have h4 : Real.rpow r 4 = r ^ (4 : ℕ) := by
    rw [Real.rpow_eq_pow]; exact_mod_cast Real.rpow_natCast r 4
  rw [h4]; ring

/-- One minus a real number is a real number. -/
theorem one_sub_real (h : ℝ) : (1 : EReal) - (h : EReal) = ((1 - h : ℝ) : EReal) := by
  rw [EReal.coe_sub, EReal.coe_one]

/-- The sum over a shape-cast array is the sum over the array: the cast renames the indices one to one. -/
theorem sum_shapeCast {s t : Shape} (x : s.Idx → EReal) (h : s.ShapeCasts t) :
    ∑ j : t.Idx, shapeCast t x h j = ∑ k : s.Idx, x k :=
  Equiv.sum_comp (Shape.reshapeEquiv h) x

end Cert.Lib

end
-- ==== Proof.RefHead.lean ====
/-
  The reference's last stretch, read at an entry.

  The second hidden layer at (r, q) is the second aggregate at (r, q), plus the second product at (r, q) times the squared
  inverse root degree of node r, plus the second bias at q. The output at node r is ten times 1 / (1 + e^(-s)), where s is
  the sum over k of the hidden layer at (r, k) times the last weight at k, plus the last bias; the reference spells the
  sigmoid with a negation, an exponential, a sum with one and a quotient of one, which on the extended reals is the
  sigmoid by definition (the pattern of 1.0 denotes the number one).
-/
import proofs.«102049_j72619307041204_2_alg».proof.Proof.Gen.ReferenceIdeal.Read
import proofs.«102049_j72619307041204_2_alg».proof.Proof.LibSigmoidPower
import Idealize.ShloMosaic.Lib.ValueIdx
import Idealize.ShloMosaic.PureOps.Ideal.Laws

set_option maxRecDepth 16384

noncomputable section

namespace Cert.KernelIdeal.Whole

open Idealize.ShloMosaic Idealize.ShloMosaic.ValueIdx
open Cert.ReferenceIdeal

/-- The reference's second hidden layer at (r, q). -/
theorem ref_hidden2_apply (x0 : (⟨S50000x128, .f32⟩ : BufTy).Contents (Elt Ideal))
    (x1 : (⟨S2x500000, .i32⟩ : BufTy).Contents (Elt Ideal))
    (x2 : (⟨S500000, .f32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal))
    (i : S50000x128.Idx) :
    Read.val_main_v97 (F := Ideal) x0 x1 x2 x3 x4 x5 x6 i
      = Read.val_main_v89 (F := Ideal) x0 x1 x2 x3 x4 x5 i + Read.val_main_v51 (F := Ideal) x0 x1 x2 x3 x4 x5 i * Read.val_main_v90 (F := Ideal) x1 x2 (ix1 (i 0))
        + x6 (ix1 (i 1)) := by
  rw [Read.val_main_v97_apply, Read.val_main_v94_apply, Read.val_main_v93_apply, Read.val_main_v92_apply, Read.val_main_v91_apply,
    Read.val_main_v96_apply, Read.val_main_v95_apply]
  have e1 : Read.idx_main_v91 (Read.idx_main_v92 i) = ix1 (i 0) := funext fun a => by match a with | ⟨0, _⟩ => rfl
  have e2 : Read.idx_main_v95 (Read.idx_main_v96 i) = ix1 (i 1) := funext fun a => by match a with | ⟨0, _⟩ => rfl
  rw [e1, e2]
  rfl

/-- The reference's output at node r: ten times the sigmoid of the head's sum plus the last bias. -/
theorem ref_out_apply (x0 : (⟨S50000x128, .f32⟩ : BufTy).Contents (Elt Ideal))
    (x1 : (⟨S2x500000, .i32⟩ : BufTy).Contents (Elt Ideal))
    (x2 : (⟨S500000, .f32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal))
    (x7 : (⟨S128x1, .f32⟩ : BufTy).Contents (Elt Ideal))
    (x8 : (⟨S1, .f32⟩ : BufTy).Contents (Elt Ideal))
    (i : S50000x1.Idx) :
    Read.val_main_v109 (F := Ideal) x0 x1 x2 x3 x4 x5 x6 x7 x8 i
      = Ideal.logistic ((∑ k : Fin 128, Read.val_main_v97 (F := Ideal) x0 x1 x2 x3 x4 x5 x6 (Read.lidx_main_v98 i k) * x7 (Read.ridx_main_v98 i k))
          + x8 (ix1 (0 : Fin 1))) * Ideal.ofBits .f32 0x41200000#32 := by
  rw [Read.val_main_v109_apply, Read.val_main_v107_apply, Read.val_main_v106_apply, Read.val_main_cst_21_apply, Read.val_main_v105_apply,
    Read.val_main_v104_apply, Read.val_main_cst_20_apply, Read.val_main_v103_apply, Read.val_main_v102_apply, Read.val_main_v101_apply,
    Read.val_main_v100_apply, Read.val_main_v99_apply, Read.val_main_v98_apply, Read.val_main_v108_apply, Read.val_main_cst_22_apply]
  have e : Read.idx_main_v99 (Read.idx_main_v100 i) = ix1 (0 : Fin 1) := funext fun a => by match a with | ⟨0, _⟩ => rfl
  rw [e]
  simp only [Ideal.mulf_def, Ideal.hostDivf_def, Ideal.addf_def, Ideal.hostUnary_exp_def, Ideal.hostNegf_def, Ideal.negf_def,
    Ideal.ofBits_def, Cert.Lib.ofBits_f32_one]
  rfl

end Cert.KernelIdeal.Whole

end
-- ==== Proof.Region2.lean ====
/-
  The third launch: the second layer's epilogue, the head and the sigmoid, a block of rows per grid point.

  Point t reads rows 5000 t … 5000 t + 4999 of the second aggregate, of the second product and of the column of squared
  inverse root degrees, the second bias row, the last layer's weights as a row and its bias as a one-entry matrix. On the
  block it forms h = agg + xw · d + b, multiplies each row by the weight row lane by lane and sums the 128 lanes (the
  product with a one-column matrix, written as a lane sum from zero), adds the bias, applies the sigmoid and multiplies
  by ten. Row p of the block therefore holds ten times the sigmoid of the sum over k of h (p, k) · wf (k) plus bf, and
  h (p, k) is the reference's second hidden layer at (5000 t + p, k) once the arrays the launch finds are the
  reference's stages; that is the reference's output at node 5000 t + p. The ten row blocks tile the output.
-/
import proofs.«102049_j72619307041204_2_alg».proof.Proof.Gen.KernelIdeal.Frame
import proofs.«102049_j72619307041204_2_alg».proof.Proof.Gen.ReferenceIdeal.Read
import proofs.«102049_j72619307041204_2_alg».proof.Proof.Hidden
import proofs.«102049_j72619307041204_2_alg».proof.Proof.LibColumnLayout
import proofs.«102049_j72619307041204_2_alg».proof.Proof.LibUnitSpread
import proofs.«102049_j72619307041204_2_alg».proof.Proof.LibHeadLayout
import proofs.«102049_j72619307041204_2_alg».proof.Proof.RefHead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The origin of a block, written as the constant map. -/
theorem origin2'' : (![0, 0] : Fin 2 → Nat) = fun _ => 0 := funext fun a => by fin_cases a <;> rfl

/-- The third launch's index maps over its grid: the row-blocked windows (aggregate, product, degree column, output) are
    at block row t; the bias row, the weight row and the one-entry bias stay at the origin. -/
theorem index_maps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The sum over the 128 lanes of row p of a [5000, 128] block (from zero) is the sum over k of the entries (p, k). -/
theorem lane_sum_apply (src : FVec Ideal S5000x128 .f32) (p : Fin 5000) :
    multiReduction .add [1] S5000 src 0x00000000#32 reduces_S5000x128_S5000 (.inl rfl) rfl (ix1 p) = ∑ k : Fin 128, src (ix2 p k) :=
  Cert.Lib.lane_sum_zero_apply src reduces_S5000x128_S5000 (.inl rfl) rfl p

/-- The last kernel's stored value at row y 0 of its block: the sigmoid of (the sum over k of the epilogue at (y 0, k) times
    the weight row at k, plus the one-entry bias), times ten. -/
theorem head_apply (v0 v2 : Vec Ideal S5000x128 .f32) (v4 : Vec Ideal S5000x1 .f32) (v6 v13 : Vec Ideal S1x128 .f32)
    (v19 : Vec Ideal S1x1 .f32) (y : S5000x1.Idx) :
    k2_pay1 v0 v2 v4 v6 v13 v19 y
      = Ideal.logistic ((∑ k : Fin 128, hidden v0 v2 v4 v6 (ix2 (y 0) k) * v13 (ix2 (0 : Fin 1) k)) + v19 (ix2 (0 : Fin 1) (0 : Fin 1)))
        * Ideal.ofBits .f32 0x41200000#32 := by
  obtain ⟨p, u, rfl⟩ : ∃ (p : Fin 5000) (u : Fin 1), y = ix2 p u := ⟨y 0, y 1, eq_ix2 y⟩
  unfold k2_pay1
  show FloatOps.mulf (FloatOps.logistic (FloatOps.addf
      (shapeCast S5000x1 (multiReduction .add [1] S5000 (mulf (hidden v0 v2 v4 v6)
          (broadcastTo S5000x128 (shapeCast S1x128 v13 shapeCasts_S1x128_S1x128) broadcasts_S1x128_S5000x128))
        0x00000000#32 reduces_S5000x128_S5000 (.inl rfl) rfl) shapeCasts_S5000_S5000x1 (ix2 p u))
      (broadcastTo S5000x1 (shapeCast S1x1 v19 shapeCasts_S1x1_S1x1) broadcasts_S1x1_S5000x1 (ix2 p u))))
     (Ideal.ofBits .f32 0x41200000#32) = _
  rw [Cert.Lib.shapeCast_a_a1_apply, lane_sum_apply, shapeCast_self, shapeCast_self, Cert.Lib.broadcastTo_11_ab_apply]
  have hs : (∑ k : Fin 128, mulf (hidden v0 v2 v4 v6) (broadcastTo S5000x128 v13 broadcasts_S1x128_S5000x128) (ix2 p k))
      = ∑ k : Fin 128, hidden v0 v2 v4 v6 (ix2 p k) * v13 (ix2 (0 : Fin 1) k) :=
    Finset.sum_congr rfl fun k _ => by
      show hidden v0 v2 v4 v6 (ix2 p k) * broadcastTo S5000x128 v13 broadcasts_S1x128_S5000x128 (ix2 p k) = _
      rw [broadcastTo_1b_ab_apply]
  rw [hs]
  rfl

/-- The block's stored value at a block index is the reference's output at the array index it sits at, given that the
    block's epilogue entries are the reference's second hidden layer there and the weights and bias are read in place. -/
theorem head_eq (x0 : (⟨Cert.ReferenceIdeal.S50000x128, .f32⟩ : BufTy).Contents (Elt Ideal))
    (x1 : (⟨Cert.ReferenceIdeal.S2x500000, .i32⟩ : BufTy).Contents (Elt Ideal))
    (x2 : (⟨Cert.ReferenceIdeal.S500000, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal))
    (x7 : (⟨Cert.ReferenceIdeal.S128x1, .f32⟩ : BufTy).Contents (Elt Ideal))
    (x8 : (⟨Cert.ReferenceIdeal.S1, .f32⟩ : BufTy).Contents (Elt Ideal))
    (v0 v2 : Vec Ideal S5000x128 .f32) (v4 : Vec Ideal S5000x1 .f32) (v6 v13 : Vec Ideal S1x128 .f32) (v19 : Vec Ideal S1x1 .f32)
    (i : Cert.ReferenceIdeal.S50000x1.Idx) (y : S5000x1.Idx)
    (h : ∀ k : Fin 128, v0 (ix2 (y 0) k) + v2 (ix2 (y 0) k) * v4 (ix2 (y 0) (0 : Fin 1)) + v6 (ix2 (0 : Fin 1) k)
        = Cert.ReferenceIdeal.Read.val_main_v97 (F := Ideal) x0 x1 x2 x3 x4 x5 x6 (Cert.ReferenceIdeal.Read.lidx_main_v98 i k))
    (hw : ∀ k : Fin 128, v13 (ix2 (0 : Fin 1) k) = x7 (Cert.ReferenceIdeal.Read.ridx_main_v98 i k))
    (hb : v19 (ix2 (0 : Fin 1) (0 : Fin 1)) = x8 (ix1 (0 : Fin 1))) :
    k2_pay1 v0 v2 v4 v6 v13 v19 y = Cert.ReferenceIdeal.Read.val_main_v109 (F := Ideal) x0 x1 x2 x3 x4 x5 x6 x7 x8 i := by
  rw [head_apply, ref_out_apply, hb]
  refine congrArg (fun s : EReal => Ideal.logistic (s + x8 (ix1 (0 : Fin 1))) * Ideal.ofBits .f32 0x41200000#32)
    (Finset.sum_congr rfl fun k _ => ?_)
  rw [← h k, ← hw k]
  exact congrArg (· * v13 (ix2 (0 : Fin 1) k)) (hidden_apply v0 v2 v4 v6 (y 0) k)

variable (V : (c : Dev nD) → (b : Ref sig .tc) → Buf (Elt Ideal) ((c : Thread nD τ).loc b))

/-- What point t writes back is block t of the reference's output, when the arrays the launch finds are the reference's
    stages of some arguments. -/
theorem flushed2_eq (c : Dev nD) (t : Fin cfg2.N) (x0 : (⟨Cert.ReferenceIdeal.S50000x128, .f32⟩ : BufTy).Contents (Elt Ideal))
    (x1 : (⟨Cert.ReferenceIdeal.S2x500000, .i32⟩ : BufTy).Contents (Elt Ideal))
    (x2 : (⟨Cert.ReferenceIdeal.S500000, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal))
    (x7 : (⟨Cert.ReferenceIdeal.S128x1, .f32⟩ : BufTy).Contents (Elt Ideal))
    (x8 : (⟨Cert.ReferenceIdeal.S1, .f32⟩ : BufTy).Contents (Elt Ideal))
    (Hagg : V c main_v62 = Cert.ReferenceIdeal.Read.val_main_v89 (F := Ideal) x0 x1 x2 x3 x4 x5)
    (Hxw : V c main_v49 = Cert.ReferenceIdeal.Read.val_main_v51 (F := Ideal) x0 x1 x2 x3 x4 x5)
    (Hd : ∀ r : S50000x1.Idx, V c main_v14 r = Cert.ReferenceIdeal.Read.val_main_v90 (F := Ideal) x1 x2 (ix1 (r 0)))
    (Hb : ∀ r : S1x128.Idx, V c main_v32 r = x6 (ix1 (r 1)))
    (Hwf : ∀ r : S1x128.Idx, V c main_v33 r = x7 (ix2 (r 1) (0 : Fin 1)))
    (Hbf : ∀ r : S1x1.Idx, V c main_v34 r = x8 (ix1 (0 : Fin 1))) :
    (dat2 V c).flushed 6 t = ((cfg2.win 6).blk t).view.read (Elt Ideal) (Cert.ReferenceIdeal.Read.val_main_v109 (F := Ideal) x0 x1 x2 x3 x4 x5 x6 x7 x8) := by
  show (cfg2.win 6).cut (grid2.coords t) ((dat2 V c).after 6 t) = _
  rw [after2_6]
  unfold out2_6
  rw [View.canon_unit_zero origin2'']
  simp only [View.ld_unit_zero (S := S5000x128) origin2'', View.ld_unit_zero (S := S1x1) origin2'',
    View.ld_unit_zero (S := S5000x1) origin2'', View.ld_unit_zero (S := S1x128) origin2'']
  obtain ⟨e0, e1, e2, e3, e4, e5, e6, e7, e8, e9, e10, e11, e12, e13⟩ := index_maps2 t
  funext j
  have hj1 : (j 1).val < 1 := (j 1).isLt
  refine head_eq x0 x1 x2 x3 x4 x5 x6 x7 x8 (iblk2 V c 0 t) (iblk2 V c 1 t) (iblk2 V c 2 t) (iblk2 V c 3 t) (iblk2 V c 4 t) (iblk2 V c 5 t)
    (((cfg2.win 6).blk t).view.emb j) j (fun k => ?_) (fun k => ?_) ?_
  · rw [ref_hidden2_apply]
    refine congrArg₂ HAdd.hAdd (congrArg₂ HAdd.hAdd ?_ (congrArg₂ HMul.hMul ?_ ?_)) ?_
    · show V c main_v62 (((cfg2.win 0).blk t).view.emb (ix2 (j 0) k)) = _
      rw [Hagg]
      refine congrArg (Cert.ReferenceIdeal.Read.val_main_v89 (F := Ideal) x0 x1 x2 x3 x4 x5) (funext fun a => Fin.ext ?_)
      match a with
      | ⟨0, _⟩ => show win2_0.index t (0 : Fin 2) * 5000 + 1 * (j 0).val = win2_6.index t (0 : Fin 2) * 5000 + 1 * (j 0).val; omega
      | ⟨1, _⟩ => show win2_0.index t (1 : Fin 2) * 128 + 1 * k.val = k.val; omega
    · show V c main_v49 (((cfg2.win 1).blk t).view.emb (ix2 (j 0) k)) = _
      rw [Hxw]
      refine congrArg (Cert.ReferenceIdeal.Read.val_main_v51 (F := Ideal) x0 x1 x2 x3 x4 x5) (funext fun a => Fin.ext ?_)
      match a with
      | ⟨0, _⟩ => show win2_1.index t (0 : Fin 2) * 5000 + 1 * (j 0).val = win2_6.index t (0 : Fin 2) * 5000 + 1 * (j 0).val; omega
      | ⟨1, _⟩ => show win2_1.index t (1 : Fin 2) * 128 + 1 * k.val = k.val; omega
    · show V c main_v14 (((cfg2.win 2).blk t).view.emb (ix2 (j 0) (0 : Fin 1))) = _
      rw [Hd]
      refine congrArg (Cert.ReferenceIdeal.Read.val_main_v90 (F := Ideal) x1 x2) (funext fun a => Fin.ext ?_)
      match a with
      | ⟨0, _⟩ => show win2_2.index t (0 : Fin 2) * 5000 + 1 * (j 0).val = win2_6.index t (0 : Fin 2) * 5000 + 1 * (j 0).val; omega
    · show V c main_v32 (((cfg2.win 3).blk t).view.emb (ix2 (0 : Fin 1) k)) = _
      rw [Hb]
      refine congrArg x6 (funext fun a => Fin.ext ?_)
      match a with
      | ⟨0, _⟩ => show win2_3.index t (1 : Fin 2) * 128 + 1 * k.val = k.val; omega
  · show V c main_v33 (((cfg2.win 4).blk t).view.emb (ix2 (0 : Fin 1) k)) = _
    rw [Hwf]
    refine congrArg x7 (funext fun a => Fin.ext ?_)
    match a with
    | ⟨0, _⟩ => show win2_4.index t (1 : Fin 2) * 128 + 1 * k.val = k.val; omega
    | ⟨1, _⟩ => show 0 = win2_6.index t (1 : Fin 2) * 1 + 1 * (j 1).val; omega
  · show V c main_v34 (((cfg2.win 5).blk t).view.emb (ix2 (0 : Fin 1) (0 : Fin 1))) = _
    rw [Hbf]

/-- An index of the output array is in point t's block iff each coordinate is in the block's range on its axis. -/
theorem mem_block2 (t : Fin cfg2.N) (i : S50000x1.Idx) :
    i ∈ ((cfg2.win 6).blk t).view.set ↔ ∀ a : Fin 2, win2_6.index t a * S5000x1.size a ≤ (i a).val ∧ (i a).val < win2_6.index t a * S5000x1.size a + S5000x1.size a := by
  show i ∈ ((View.whole main_v63).slice (win2_6.rect t)).set ↔ _
  rw [View.set_slice_whole, Rect.mem_set_unit]
  exact Iff.rfl

/-- Row r of the output is in the block of point r / 5000. -/
theorem cover2 (i : S50000x1.Idx) : ∃ t : Fin cfg2.N, (cfg2.win 6).flush t = true ∧ i ∈ ((cfg2.win 6).blk t).view.set := by
  have hi0 : (i 0).val < 50000 := (i 0).isLt
  have hi1 : (i 1).val < 1 := (i 1).isLt
  let t : Fin cfg2.N := ⟨(i 0).val / 5000, (by omega : (i 0).val / 5000 < 10)⟩
  obtain ⟨-, -, -, -, -, -, -, -, -, -, -, -, e12, e13⟩ := index_maps2 t
  have e12' : win2_6.index t (0 : Fin 2) = (i 0).val / 5000 := e12
  refine ⟨t, flush2_6 t, ?_⟩
  rw [mem_block2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 1 ≤ (i 1).val ∧ (i 1).val < win2_6.index t (1 : Fin 2) * 1 + 1; omega

/-- After the third launch its output array is the reference's output, when the arrays the launch found are the
    reference's stages of some arguments. -/
theorem output2 (c : Dev nD) (x0 : (⟨Cert.ReferenceIdeal.S50000x128, .f32⟩ : BufTy).Contents (Elt Ideal))
    (x1 : (⟨Cert.ReferenceIdeal.S2x500000, .i32⟩ : BufTy).Contents (Elt Ideal))
    (x2 : (⟨Cert.ReferenceIdeal.S500000, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal))
    (x7 : (⟨Cert.ReferenceIdeal.S128x1, .f32⟩ : BufTy).Contents (Elt Ideal))
    (x8 : (⟨Cert.ReferenceIdeal.S1, .f32⟩ : BufTy).Contents (Elt Ideal))
    (Hagg : V c main_v62 = Cert.ReferenceIdeal.Read.val_main_v89 (F := Ideal) x0 x1 x2 x3 x4 x5)
    (Hxw : V c main_v49 = Cert.ReferenceIdeal.Read.val_main_v51 (F := Ideal) x0 x1 x2 x3 x4 x5)
    (Hd : ∀ r : S50000x1.Idx, V c main_v14 r = Cert.ReferenceIdeal.Read.val_main_v90 (F := Ideal) x1 x2 (ix1 (r 0)))
    (Hb : ∀ r : S1x128.Idx, V c main_v32 r = x6 (ix1 (r 1)))
    (Hwf : ∀ r : S1x128.Idx, V c main_v33 r = x7 (ix2 (r 1) (0 : Fin 1)))
    (Hbf : ∀ r : S1x1.Idx, V c main_v34 r = x8 (ix1 (0 : Fin 1))) :
    (dat2 V c).arrAt 6 cfg2.N = Cert.ReferenceIdeal.Read.val_main_v109 (F := Ideal) x0 x1 x2 x3 x4 x5 x6 x7 x8 :=
  (dat2 V c).arrAt_eq_of_cover 6 _ (fun t _ => flushed2_eq V c t x0 x1 x2 x3 x4 x5 x6 x7 x8 Hagg Hxw Hd Hb Hwf Hbf) cover2

end Cert.KernelIdeal.Whole

end
-- ==== Proof.Chain.lean ====
/-
  From the first launch's entry to the program's result: every buffer a launch or a host stretch reads, as a stage of
  the reference.

  A launch changes its own arrays only (its inputs stay as found, its output becomes what the grid's write-backs leave);
  a host stretch changes the buffers its operations write only. So a buffer computed before the first launch — the
  edges' endpoints, the per-edge coefficient, the degree column, the bias rows, the weight row — is still the same stage
  of the reference when a later launch or stretch reads it. The first launch's output is the reference's first product;
  the stretch after it gathers that product along the edges, scales by the coefficient and sums into the destination
  nodes, exactly the reference's operations on the same values, so it produces the reference's first aggregate; the second
  launch then produces the reference's second product, the next stretch its second aggregate (the reference recomputes
  the degree-dependent quantities for its second layer by the same operations of the same arguments: the same values),
  and the third launch the reference's output.
-/
import proofs.«102049_j72619307041204_2_alg».proof.Proof.Entry0
import proofs.«102049_j72619307041204_2_alg».proof.Proof.Region0
import proofs.«102049_j72619307041204_2_alg».proof.Proof.Region1
import proofs.«102049_j72619307041204_2_alg».proof.Proof.Region2
import proofs.«102049_j72619307041204_2_alg».proof.Proof.LibColumnLayout
import proofs.«102049_j72619307041204_2_alg».proof.Proof.LibHeadLayout
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo Idealize.ShloMosaic.ValueIdx

/-! ## Reading a vector laid out as a column, a row, or a one-entry matrix -/

/-- A vector of per-node numbers recast as a column reads, at (r, ·), the vector at r. -/
theorem column_read {α : Type} (f : S50000.Idx → α) (h : S50000.ShapeCasts S50000x1) (r : S50000x1.Idx) :
    shapeCast S50000x1 f h r = f (ix1 (r 0)) := by
  obtain ⟨p, u, rfl⟩ : ∃ (p : Fin 50000) (u : Fin 1), r = ix2 p u := ⟨r 0, r 1, eq_ix2 r⟩
  exact Cert.Lib.shapeCast_a_a1_apply f h p u

/-- A vector of per-lane numbers recast as a row reads, at (·, q), the vector at q. -/
theorem row_read {α : Type} (f : S128.Idx → α) (h : S128.ShapeCasts S1x128) (r : S1x128.Idx) :
    shapeCast S1x128 f h r = f (ix1 (r 1)) := by
  obtain ⟨u, q, rfl⟩ : ∃ (u : Fin 1) (q : Fin 128), r = ix2 u q := ⟨r 0, r 1, eq_ix2 r⟩
  exact shapeCast_a_1a_apply f h u q

/-- A one-column matrix recast as a row reads, at (·, q), the column at (q, 0). -/
theorem column_as_row_read {α : Type} (f : S128x1.Idx → α) (h : S128x1.ShapeCasts S1x128) (r : S1x128.Idx) :
    shapeCast S1x128 f h r = f (ix2 (r 1) (0 : Fin 1)) := by
  obtain ⟨u, q, rfl⟩ : ∃ (u : Fin 1) (q : Fin 128), r = ix2 u q := ⟨r 0, r 1, eq_ix2 r⟩
  exact Cert.Lib.shapeCast_a1_1a_apply f h u q

/-- A one-entry vector recast as a one-entry matrix reads its entry. -/
theorem single_read {α : Type} (f : S1.Idx → α) (h : S1.ShapeCasts S1x1) (r : S1x1.Idx) :
    shapeCast S1x1 f h r = f (ix1 (0 : Fin 1)) := by
  obtain ⟨u, w, rfl⟩ : ∃ (u : Fin 1) (w : Fin 1), r = ix2 u w := ⟨r 0, r 1, eq_ix2 r⟩
  exact Cert.Lib.shapeCast_1_11_apply f h u w

variable (m : (ℓ : Loc nD τ sig) → Buf (Elt Ideal) ℓ) (ρ : Dev nD → PrngReg)

/-! ## After the first launch -/

/-- The first launch's output is the reference's first product x · W1. -/
theorem exit0_product (c : Dev nD) : W4 m ρ c (Proc.devRef .tc main_v35) = Cert.ReferenceIdeal.Read.val_main_v4 (F := Ideal) (m ((c : Thread nD τ).loc main_arg0)) (m ((c : Thread nD τ).loc main_arg3)) :=
  (W4_arr m ρ c 2).trans ((product0 (V3 m ρ) c).trans
    (congrArg₂ (Cert.ReferenceIdeal.Read.val_main_v4 (F := Ideal)) (entry0_x m ρ c) (entry0_W1 m ρ c)))

theorem at4_v1 (c : Dev nD) : W4 m ρ c (Proc.devRef .tc main_v1) = Cert.ReferenceIdeal.Read.val_main_v1 (F := Ideal) (m ((c : Thread nD τ).loc main_arg1)) :=
  (W4_of_ne m ρ c main_v1 (by decide)).trans (entry0_src m ρ c)

theorem at4_v3 (c : Dev nD) : W4 m ρ c (Proc.devRef .tc main_v3) = Cert.ReferenceIdeal.Read.val_main_v3 (F := Ideal) (m ((c : Thread nD τ).loc main_arg1)) :=
  (W4_of_ne m ρ c main_v3 (by decide)).trans (entry0_dst m ρ c)

theorem at4_v30 (c : Dev nD) : W4 m ρ c (Proc.devRef .tc main_v30) = Cert.ReferenceIdeal.Read.val_main_v29 (F := Ideal) (m ((c : Thread nD τ).loc main_arg1)) (m ((c : Thread nD τ).loc main_arg2)) :=
  (W4_of_ne m ρ c main_v30 (by decide)).trans (entry0_coef m ρ c)

theorem at4_v14 (c : Dev nD) : W4 m ρ c (Proc.devRef .tc main_v14) = (fun i => shapeCast S50000x1 (Cert.ReferenceIdeal.Read.val_main_v43 (F := Ideal) (m ((c : Thread nD τ).loc main_arg1)) (m ((c : Thread nD τ).loc main_arg2))) shapeCasts_S50000_S50000x1 i) :=
  (W4_of_ne m ρ c main_v14 (by decide)).trans (entry0_selfcol m ρ c)

theorem at4_v31 (c : Dev nD) : W4 m ρ c (Proc.devRef .tc main_v31) = (fun i => shapeCast S1x128 (m ((c : Thread nD τ).loc main_arg4)) shapeCasts_S128_S1x128 i) :=
  (W4_of_ne m ρ c main_v31 (by decide)).trans (entry0_b1row m ρ c)

theorem at4_v32 (c : Dev nD) : W4 m ρ c (Proc.devRef .tc main_v32) = (fun i => shapeCast S1x128 (m ((c : Thread nD τ).loc main_arg6)) shapeCasts_S128_S1x128 i) :=
  (W4_of_ne m ρ c main_v32 (by decide)).trans (entry0_b2row m ρ c)

theorem at4_v33 (c : Dev nD) : W4 m ρ c (Proc.devRef .tc main_v33) = (fun i => shapeCast S1x128 (m ((c : Thread nD τ).loc main_arg7)) shapeCasts_S128x1_S1x128 i) :=
  (W4_of_ne m ρ c main_v33 (by decide)).trans (entry0_wfrow m ρ c)

theorem at4_v34 (c : Dev nD) : W4 m ρ c (Proc.devRef .tc main_v34) = (fun i => shapeCast S1x1 (m ((c : Thread nD τ).loc main_arg8)) shapeCasts_S1_S1x1 i) :=
  (W4_of_ne m ρ c main_v34 (by decide)).trans (entry0_bf11 m ρ c)

theorem at4_arg5 (c : Dev nD) : W4 m ρ c (Proc.devRef .tc main_arg5) = (m ((c : Thread nD τ).loc main_arg5)) :=
  (W4_of_ne m ρ c main_arg5 (by decide)).trans (entry0_W2 m ρ c)

/-! ## The stretch between the first and the second launch -/

theorem at5_v1 (c : Dev nD) : W5 m ρ c (Proc.devRef .tc main_v1) = Cert.ReferenceIdeal.Read.val_main_v1 (F := Ideal) (m ((c : Thread nD τ).loc main_arg1)) := by
  refine Eq.trans ?_ (at4_v1 m ρ c)
  show StableHlo.after hostOps1 (W4 m ρ c) (Proc.devRef .tc main_v1) = _
  after_results_simp <;> rfl

theorem at5_v3 (c : Dev nD) : W5 m ρ c (Proc.devRef .tc main_v3) = Cert.ReferenceIdeal.Read.val_main_v3 (F := Ideal) (m ((c : Thread nD τ).loc main_arg1)) := by
  refine Eq.trans ?_ (at4_v3 m ρ c)
  show StableHlo.after hostOps1 (W4 m ρ c) (Proc.devRef .tc main_v3) = _
  after_results_simp <;> rfl

theorem at5_v30 (c : Dev nD) : W5 m ρ c (Proc.devRef .tc main_v30) = Cert.ReferenceIdeal.Read.val_main_v29 (F := Ideal) (m ((c : Thread nD τ).loc main_arg1)) (m ((c : Thread nD τ).loc main_arg2)) := by
  refine Eq.trans ?_ (at4_v30 m ρ c)
  show StableHlo.after hostOps1 (W4 m ρ c) (Proc.devRef .tc main_v30) = _
  after_results_simp <;> rfl

theorem at5_v14 (c : Dev nD) : W5 m ρ c (Proc.devRef .tc main_v14) = (fun i => shapeCast S50000x1 (Cert.ReferenceIdeal.Read.val_main_v43 (F := Ideal) (m ((c : Thread nD τ).loc main_arg1)) (m ((c : Thread nD τ).loc main_arg2))) shapeCasts_S50000_S50000x1 i) := by
  refine Eq.trans ?_ (at4_v14 m ρ c)
  show StableHlo.after hostOps1 (W4 m ρ c) (Proc.devRef .tc main_v14) = _
  after_results_simp <;> rfl

theorem at5_v31 (c : Dev nD) : W5 m ρ c (Proc.devRef .tc main_v31) = (fun i => shapeCast S1x128 (m ((c : Thread nD τ).loc main_arg4)) shapeCasts_S128_S1x128 i) := by
  refine Eq.trans ?_ (at4_v31 m ρ c)
  show StableHlo.after hostOps1 (W4 m ρ c) (Proc.devRef .tc main_v31) = _
  after_results_simp <;> rfl

theorem at5_v32 (c : Dev nD) : W5 m ρ c (Proc.devRef .tc main_v32) = (fun i => shapeCast S1x128 (m ((c : Thread nD τ).loc main_arg6)) shapeCasts_S128_S1x128 i) := by
  refine Eq.trans ?_ (at4_v32 m ρ c)
  show StableHlo.after hostOps1 (W4 m ρ c) (Proc.devRef .tc main_v32) = _
  after_results_simp <;> rfl

theorem at5_v33 (c : Dev nD) : W5 m ρ c (Proc.devRef .tc main_v33) = (fun i => shapeCast S1x128 (m ((c : Thread nD τ).loc main_arg7)) shapeCasts_S128x1_S1x128 i) := by
  refine Eq.trans ?_ (at4_v33 m ρ c)
  show StableHlo.after hostOps1 (W4 m ρ c) (Proc.devRef .tc main_v33) = _
  after_results_simp <;> rfl

theorem at5_v34 (c : Dev nD) : W5 m ρ c (Proc.devRef .tc main_v34) = (fun i => shapeCast S1x1 (m ((c : Thread nD τ).loc main_arg8)) shapeCasts_S1_S1x1 i) := by
  refine Eq.trans ?_ (at4_v34 m ρ c)
  show StableHlo.after hostOps1 (W4 m ρ c) (Proc.devRef .tc main_v34) = _
  after_results_simp <;> rfl

theorem at5_arg5 (c : Dev nD) : W5 m ρ c (Proc.devRef .tc main_arg5) = (m ((c : Thread nD τ).loc main_arg5)) := by
  refine Eq.trans ?_ (at4_arg5 m ρ c)
  show StableHlo.after hostOps1 (W4 m ρ c) (Proc.devRef .tc main_arg5) = _
  after_results_simp <;> rfl

theorem at5_v35 (c : Dev nD) : W5 m ρ c (Proc.devRef .tc main_v35) = Cert.ReferenceIdeal.Read.val_main_v4 (F := Ideal) (m ((c : Thread nD τ).loc main_arg0)) (m ((c : Thread nD τ).loc main_arg3)) := by
  refine Eq.trans ?_ (exit0_product m ρ c)
  show StableHlo.after hostOps1 (W4 m ρ c) (Proc.devRef .tc main_v35) = _
  after_results_simp <;> rfl

set_option maxHeartbeats 2000000 in
/-- The first aggregate: the first product gathered along the edges' sources, scaled by the per-edge coefficient and
    summed into the edges' destinations — the reference's operations on the same values. -/
theorem at5_aggregate (c : Dev nD) : W5 m ρ c (Proc.devRef .tc main_v48) = Cert.ReferenceIdeal.Read.val_main_v42 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v48) = _
  after_results_simp
  rw [exit0_product, at4_v1, at4_v30, at4_v3]
  rfl

/-! ## After the second launch -/

/-- The second launch's output is the reference's second product (first hidden layer) · W2. -/
theorem exit1_product (c : Dev nD) : W6 m ρ c (Proc.devRef .tc main_v49) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 5).trans (product1 (V5 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (at5_aggregate m ρ c) (at5_v35 m ρ c)
    (fun r => (congrFun (at5_v14 m ρ c) r).trans (column_read _ _ r))
    (fun r => (congrFun (at5_v31 m ρ c) r).trans (row_read _ _ r))
    (at5_arg5 m ρ c))

/-- The degree column is an input of the second launch: it leaves it as found. -/
theorem at6_v14 (c : Dev nD) : W6 m ρ c (Proc.devRef .tc main_v14) = (fun i => shapeCast S50000x1 (Cert.ReferenceIdeal.Read.val_main_v43 (F := Ideal) (m ((c : Thread nD τ).loc main_arg1)) (m ((c : Thread nD τ).loc main_arg2))) shapeCasts_S50000_S50000x1 i) :=
  ((W6_arr m ρ c 2).trans (((dat1 (V5 m ρ) c).arrAt_in 2 rfl _).trans (A_eq1 (V5 m ρ) c 2))).trans (at5_v14 m ρ c)

theorem at6_v1 (c : Dev nD) : W6 m ρ c (Proc.devRef .tc main_v1) = Cert.ReferenceIdeal.Read.val_main_v1 (F := Ideal) (m ((c : Thread nD τ).loc main_arg1)) :=
  (W6_of_ne m ρ c main_v1 (by decide)).trans (at5_v1 m ρ c)

theorem at6_v3 (c : Dev nD) : W6 m ρ c (Proc.devRef .tc main_v3) = Cert.ReferenceIdeal.Read.val_main_v3 (F := Ideal) (m ((c : Thread nD τ).loc main_arg1)) :=
  (W6_of_ne m ρ c main_v3 (by decide)).trans (at5_v3 m ρ c)

theorem at6_v30 (c : Dev nD) : W6 m ρ c (Proc.devRef .tc main_v30) = Cert.ReferenceIdeal.Read.val_main_v29 (F := Ideal) (m ((c : Thread nD τ).loc main_arg1)) (m ((c : Thread nD τ).loc main_arg2)) :=
  (W6_of_ne m ρ c main_v30 (by decide)).trans (at5_v30 m ρ c)

theorem at6_v32 (c : Dev nD) : W6 m ρ c (Proc.devRef .tc main_v32) = (fun i => shapeCast S1x128 (m ((c : Thread nD τ).loc main_arg6)) shapeCasts_S128_S1x128 i) :=
  (W6_of_ne m ρ c main_v32 (by decide)).trans (at5_v32 m ρ c)

theorem at6_v33 (c : Dev nD) : W6 m ρ c (Proc.devRef .tc main_v33) = (fun i => shapeCast S1x128 (m ((c : Thread nD τ).loc main_arg7)) shapeCasts_S128x1_S1x128 i) :=
  (W6_of_ne m ρ c main_v33 (by decide)).trans (at5_v33 m ρ c)

theorem at6_v34 (c : Dev nD) : W6 m ρ c (Proc.devRef .tc main_v34) = (fun i => shapeCast S1x1 (m ((c : Thread nD τ).loc main_arg8)) shapeCasts_S1_S1x1 i) :=
  (W6_of_ne m ρ c main_v34 (by decide)).trans (at5_v34 m ρ c)

/-! ## The stretch between the second and the third launch -/

theorem at7_v14 (c : Dev nD) : W7 m ρ c (Proc.devRef .tc main_v14) = (fun i => shapeCast S50000x1 (Cert.ReferenceIdeal.Read.val_main_v43 (F := Ideal) (m ((c : Thread nD τ).loc main_arg1)) (m ((c : Thread nD τ).loc main_arg2))) shapeCasts_S50000_S50000x1 i) := by
  refine Eq.trans ?_ (at6_v14 m ρ c)
  show StableHlo.after hostOps2 (W6 m ρ c) (Proc.devRef .tc main_v14) = _
  after_results_simp <;> rfl

theorem at7_v32 (c : Dev nD) : W7 m ρ c (Proc.devRef .tc main_v32) = (fun i => shapeCast S1x128 (m ((c : Thread nD τ).loc main_arg6)) shapeCasts_S128_S1x128 i) := by
  refine Eq.trans ?_ (at6_v32 m ρ c)
  show StableHlo.after hostOps2 (W6 m ρ c) (Proc.devRef .tc main_v32) = _
  after_results_simp <;> rfl

theorem at7_v33 (c : Dev nD) : W7 m ρ c (Proc.devRef .tc main_v33) = (fun i => shapeCast S1x128 (m ((c : Thread nD τ).loc main_arg7)) shapeCasts_S128x1_S1x128 i) := by
  refine Eq.trans ?_ (at6_v33 m ρ c)
  show StableHlo.after hostOps2 (W6 m ρ c) (Proc.devRef .tc main_v33) = _
  after_results_simp <;> rfl

theorem at7_v34 (c : Dev nD) : W7 m ρ c (Proc.devRef .tc main_v34) = (fun i => shapeCast S1x1 (m ((c : Thread nD τ).loc main_arg8)) shapeCasts_S1_S1x1 i) := by
  refine Eq.trans ?_ (at6_v34 m ρ c)
  show StableHlo.after hostOps2 (W6 m ρ c) (Proc.devRef .tc main_v34) = _
  after_results_simp <;> rfl

theorem at7_v49 (c : Dev nD) : W7 m ρ c (Proc.devRef .tc main_v49) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine Eq.trans ?_ (exit1_product m ρ c)
  show StableHlo.after hostOps2 (W6 m ρ c) (Proc.devRef .tc main_v49) = _
  after_results_simp <;> rfl

set_option maxHeartbeats 4000000 in
/-- The second aggregate: the second product gathered, scaled and summed as before — the reference's operations on the
    same values (its recomputed coefficient is the same function of the same arguments). -/
theorem at7_aggregate (c : Dev nD) : W7 m ρ c (Proc.devRef .tc main_v62) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) (Proc.devRef .tc main_v62) = _
  after_results_simp
  rw [exit1_product, at6_v1, at6_v30, at6_v3]
  rfl

/-! ## The result -/

/-- The squared inverse root degrees the reference recomputes for its second layer are those of its first. -/
theorem selfloop_again (x1 : (⟨Cert.ReferenceIdeal.S2x500000, .i32⟩ : BufTy).Contents (Elt Ideal)) (x2 : (⟨Cert.ReferenceIdeal.S500000, .f32⟩ : BufTy).Contents (Elt Ideal)) :
    Cert.ReferenceIdeal.Read.val_main_v43 (F := Ideal) x1 x2 = Cert.ReferenceIdeal.Read.val_main_v90 (F := Ideal) x1 x2 := rfl

/-- The program's result buffer holds the reference's output stage of the arguments. -/
theorem result_eq (c : Dev nD) : W8 m ρ c (Proc.devRef .tc main_v63) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W8_arr m ρ c 6).trans (output2 (V7 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (at7_aggregate m ρ c) (at7_v49 m ρ c)
    (fun r => ((congrFun (at7_v14 m ρ c) r).trans (column_read _ _ r)).trans (congrFun (selfloop_again _ _) _))
    (fun r => (congrFun (at7_v32 m ρ c) r).trans (row_read _ _ r))
    (fun r => (congrFun (at7_v33 m ρ c) r).trans (column_as_row_read _ _ r))
    (fun r => (congrFun (at7_v34 m ρ c) r).trans (single_read _ _ r)))

end Cert.KernelIdeal.Whole

end
-- ==== Proof.lean ====
/-
  A two-layer graph convolution with a sigmoid head: the kernel program against its reference, over the extended reals.

  Both programs compute, for 50000 nodes and 500000 weighted edges,
      out = 10 · sigmoid( h2 · Wf + bf ),   h_l = A_hat (h_{l-1} W_l) + b_l,   h_0 = x,
  where A_hat gathers a node matrix along the edges' sources, scales each edge's row by
  rsqrt(deg src) · weight · rsqrt(deg dst), sums the rows into the edges' destinations, and adds the node's own row
  times rsqrt(deg)^2 (deg is the sum of the incoming weights plus one, and the inverse root is taken as zero where the
  degree is not positive).

  The kernel program keeps the gathers and the sums into destinations on the host, exactly as the reference spells them,
  and runs three grids of ten row blocks each: x · W1; (agg1 + xw1 · d + b1) · W2; and
  10 · sigmoid(sum over lanes of (agg2 + xw2 · d + b2) · wf + bf). On the extended reals each block product is the same
  rows of the reference's whole product (a product accumulated into zero is the plain sum over the contracted index, and
  a change of float format is the identity), the lane sum against the weight row is the reference's product with the
  one-column weight matrix, the layer epilogue is grouped as the reference groups it, and the kernel's sigmoid is by
  definition 1 / (1 + e^(-s)), which is what the reference writes out. No law that would need finite inputs is used:
  nothing is distributed, cancelled or reordered.

  The frames of the two kernel programs are the generated ones; the reference's is its generated run with the result
  dropped; the idealization rewrote nothing.
-/
import proofs.«102049_j72619307041204_2_alg».proof.Defs
import proofs.«102049_j72619307041204_2_alg».proof.Proof.Gen.Kernel
import proofs.«102049_j72619307041204_2_alg».proof.Proof.Gen.Kernel.Skeleton
import proofs.«102049_j72619307041204_2_alg».proof.Proof.Gen.Kernel.Launch
import proofs.«102049_j72619307041204_2_alg».proof.Proof.Gen.Kernel.Points
import proofs.«102049_j72619307041204_2_alg».proof.Proof.Gen.Kernel.Frame
import proofs.«102049_j72619307041204_2_alg».proof.Proof.Gen.KernelIdeal
import proofs.«102049_j72619307041204_2_alg».proof.Proof.Gen.KernelIdeal.Skeleton
import proofs.«102049_j72619307041204_2_alg».proof.Proof.Gen.KernelIdeal.Launch
import proofs.«102049_j72619307041204_2_alg».proof.Proof.Gen.KernelIdeal.Points
import proofs.«102049_j72619307041204_2_alg».proof.Proof.Gen.KernelIdeal.Frame
import proofs.«102049_j72619307041204_2_alg».proof.Proof.Gen.ReferenceIdeal
import proofs.«102049_j72619307041204_2_alg».proof.Proof.Gen.ReferenceIdeal.Run
import proofs.«102049_j72619307041204_2_alg».proof.Proof.Gen.ReferenceIdeal.Read
import proofs.«102049_j72619307041204_2_alg».proof.Proof.Gen.Pre_finite_inputs
import proofs.«102049_j72619307041204_2_alg».proof.Proof.KernelRun
import proofs.«102049_j72619307041204_2_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's output stage of the arguments in their
    result buffer: the kernel program by the chain through its three launches, the reference by its own run. -/
theorem algebraic : Cert.algebraic_KernelIdeal_ReferenceIdeal := by
  intro m ρ m' ρ' _ hagree
  refine ⟨fun c => Cert.ReferenceIdeal.Read.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Whole.run_all m ρ)
    exact ⟨(h c _ (Cert.KernelIdeal.Gen.mem_uc Cert.KernelIdeal.main_v63 (by decide))).trans (Cert.KernelIdeal.Whole.result_eq m ρ c),
      (h c _ (Cert.KernelIdeal.Gen.mem_uc Cert.KernelIdeal.main_arg0 (by decide))).trans (Cert.KernelIdeal.Gen.W8_main_arg0 m ρ c),
      (h c _ (Cert.KernelIdeal.Gen.mem_uc Cert.KernelIdeal.main_arg1 (by decide))).trans (Cert.KernelIdeal.Gen.W8_main_arg1 m ρ c),
      (h c _ (Cert.KernelIdeal.Gen.mem_uc Cert.KernelIdeal.main_arg2 (by decide))).trans (Cert.KernelIdeal.Gen.W8_main_arg2 m ρ c),
      (h c _ (Cert.KernelIdeal.Gen.mem_uc Cert.KernelIdeal.main_arg3 (by decide))).trans (Cert.KernelIdeal.Gen.W8_main_arg3 m ρ c),
      (h c _ (Cert.KernelIdeal.Gen.mem_uc Cert.KernelIdeal.main_arg4 (by decide))).trans (Cert.KernelIdeal.Gen.W8_main_arg4 m ρ c),
      (h c _ (Cert.KernelIdeal.Gen.mem_uc Cert.KernelIdeal.main_arg5 (by decide))).trans (Cert.KernelIdeal.Gen.W8_main_arg5 m ρ c),
      (h c _ (Cert.KernelIdeal.Gen.mem_uc Cert.KernelIdeal.main_arg6 (by decide))).trans (Cert.KernelIdeal.Gen.W8_main_arg6 m ρ c),
      (h c _ (Cert.KernelIdeal.Gen.mem_uc Cert.KernelIdeal.main_arg7 (by decide))).trans (Cert.KernelIdeal.Gen.W8_main_arg7 m ρ c),
      (h c _ (Cert.KernelIdeal.Gen.mem_uc Cert.KernelIdeal.main_arg8 (by decide))).trans (Cert.KernelIdeal.Gen.W8_main_arg8 m ρ c)⟩
  · refine (θ_run Cert.ReferenceIdeal.defs _ _).mono (fun _ h c => ⟨?_, (h c).2⟩)
      (Cert.ReferenceIdeal.Value.run (F := Ideal) m' ρ')
    obtain ⟨g0, g1, g2, g3, g4, g5, g6, g7, g8⟩ := hagree c
    rw [(h c).1, Cert.ReferenceIdeal.Read.val_main_v109_eq, g0, g1, g2, g3, g4, g5, g6, g7, g8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
